-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S100000x128 .f32) (main_arg1 : IVec S2x3200000 32) (main_arg2 : FVec F S3200000 .f32) (main_arg3 : FVec F S128x1 .f32) (main_arg4 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x1 : Shape := ⟨2, ![128, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S5000x128 : Shape := ⟨2, ![5000, 128]⟩
abbrev S5000x1 : Shape := ⟨2, ![5000, 1]⟩
abbrev S1x100000 : Shape := ⟨2, ![1, 100000]⟩
abbrev S1x100352 : Shape := ⟨2, ![1, 100352]⟩
abbrev S1x1024 : Shape := ⟨2, ![1, 1024]⟩

abbrev nBuf : Space → Nat
  | .hbm => 72
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x1, .f32⟩
  | .hbm, ⟨4, _⟩ => ⟨S1, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x1, .f32⟩
  | .hbm, ⟨48, _⟩ => ⟨S100000, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000, .f32⟩
  | .hbm, ⟨58, _⟩ => ⟨S3300000, .f32⟩
  | .hbm, ⟨59, _⟩ => ⟨S_, .f32⟩
  | .hbm, ⟨60, _⟩ => ⟨S100000, .f32⟩
  | .hbm, ⟨61, _⟩ => ⟨S3300000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S1x100000, .f32⟩
  | .hbm, ⟨67, _⟩ => ⟨S_, .i32⟩
  | .hbm, ⟨68, _⟩ => ⟨S_, .f32⟩
  | .hbm, ⟨69, _⟩ => ⟨S1x100352, .f32⟩
  | .hbm, ⟨70, _⟩ => ⟨S1x100352, .f32⟩
  | .hbm, ⟨71, _⟩ => ⟨S1x100000, .f32⟩
  | .local _ .vmem, ⟨0, _⟩ => ⟨S5000x128, .f32⟩
  | .local _ .vmem, ⟨1, _⟩ => ⟨S5000x128, .f32⟩
  | .local _ .vmem, ⟨2, _⟩ => ⟨S128x1, .f32⟩
  | .local _ .vmem, ⟨3, _⟩ => ⟨S5000x1, .f32⟩
  | .local _ .vmem, ⟨4, _⟩ => ⟨S5000x1, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  shapeCasts_S1_S_ : S1.ShapeCasts S_
  shapeCasts_S100000_S1x100000 : S100000.ShapeCasts S1x100000
  pads_S1x100000_S1x100352_000_03520 : S1x100000.Pads (![0, 0] : Fin 2 → Nat) ![0, 352] ![0, 0] S1x100352
  h_S_ : 0 < S_.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S1x100352_S1x100000_0_0 : S1x100352.Slices ![0, 0] S1x100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x100352.size a
  hwx1_0 : ∀ i : grid1.Coords, EltTy.bits .f32 = 32 ∨ (Rect.block (s := S1x100352) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x100352.size a
  hwx1_1 : ∀ i : grid1.Coords, EltTy.bits .f32 = 32 ∨ (Rect.block (s := S1x100352) S1x1024.size (cc1_transform_1 i) (hinb1_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x1 : Shape := ⟨2, ![128, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x100000 : Shape := ⟨2, ![1, 100000]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x1, .f32⟩
  | .hbm, ⟨4, _⟩ => ⟨S1, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S100000, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x1, .f32⟩
  | .hbm, ⟨48, _⟩ => ⟨S100000, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000, .f32⟩
  | .hbm, ⟨58, _⟩ => ⟨S3300000, .f32⟩
  | .hbm, ⟨59, _⟩ => ⟨S_, .f32⟩
  | .hbm, ⟨60, _⟩ => ⟨S100000, .f32⟩
  | .hbm, ⟨61, _⟩ => ⟨S3300000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000, .f32⟩
  | .hbm, ⟨70, _⟩ => ⟨S100000, .f32⟩
  | .hbm, ⟨71, _⟩ => ⟨S100000, .i1⟩
  | .hbm, ⟨72, _⟩ => ⟨S100000, .f32⟩
  | .hbm, ⟨73, _⟩ => ⟨S100000, .f32⟩
  | .hbm, ⟨74, _⟩ => ⟨S100000, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S1x100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  shapeCasts_S100000x1_S100000 : S100000x1.ShapeCasts S100000
  shapeCasts_S1_S_ : S1.ShapeCasts S_
  shapeCasts_S100000_S1x100000 : S100000.ShapeCasts S1x100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x1_S100000x1_1_0_0_1_n_n_wf : DotDims.WF S100000x128 S128x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel's run, with its result named.

  The kernel's @main is eight segments: three stretches of host operations, the matmul region, two stretches of
  host operations, the Mish region, and one last host operation (the slice back to 100000 lanes). The launch
  theorem for such a program ends with every unscoped buffer of a core at the last boundary's contents — the fold
  of the segments over the launch memory. The frame keeps of this only that the five arguments end as launched;
  here the result buffer is kept too: every weakly fair execution terminates, nothing faults, the result buffer
  ends at the last boundary's contents AT THAT BUFFER, and the arguments end unchanged. What those contents are is
  read off the fold in the modules that follow.
-/
import proofs.«163610_j22686017257663_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the result buffer ends at the last segment
    boundary's contents at that buffer, and the five argument arrays end as launched. -/
theorem run : θ_run defs (onTc (τ := τ) (main (F := F))) ⟨m, fun _ => 0, ρ⟩ (fun r => ∀ c : Dev nD,
      r.2.mem ((c.tc : Thread nD τ).loc main_v51) = W8 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.ResultRun

end
-- ==== Proof.LinearRegion.lean ====
/-
  The first kernel region: h = x · W, twenty row blocks at a time.

  The region walks the [100000, 128] array x in 20 blocks of 5000 rows; the [128, 1] array W is one block, the same
  at every point; the output [100000, 1] is written in the matching 20 blocks of 5000 rows. The body rounds both
  loaded blocks to bf16 — the identity on the extended reals — and multiplies them into a zero accumulator, so entry
  (p, 0) of the stored block is  Σ_k X[p, k] · W[k, 0]  over the 128 columns. Row p of block t is row 5000·t + p of
  the array, hence what point t writes back is block t of ONE whole-array function,
      rowDot x W (r, 0) = Σ_k x[r, k] · W[k, 0],
  and the 20 blocks tile the output (row r lies in block r / 5000): after the region the output array is rowDot.
  Everything is stated at an arbitrary entry contents `V`, as the generated frame states its region halves.
-/
import proofs.«163610_j22686017257663_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.LinearRegion

open Cert.KernelIdeal Cert.KernelIdeal.Gen Idealize.ShloMosaic Idealize.ShloMosaic.TcCoe Idealize.SL.Sem
open Idealize.ShloMosaic.Pipeline (Dat)

/-- The zero offsets of a whole-block access, however spelt. -/
theorem zero_offsets : (![0, 0] : Fin 2 → Nat) = fun _ => 0 := funext fun a => by fin_cases a <;> rfl

/-! ## The whole-array product -/

/-- Entry (row of `i`, column `k`) of the left array. -/
abbrev xAt (i : S100000x1.Idx) (k : Fin 128) : S100000x128.Idx := fun a => match a with
  | ⟨0, _⟩ => ⟨(i 0).val, (i 0).isLt⟩
  | ⟨1, _⟩ => ⟨k.val, k.isLt⟩
/-- Entry (row `k`, column of `i`) of the right array. -/
abbrev wAt (i : S100000x1.Idx) (k : Fin 128) : S128x1.Idx := fun a => match a with
  | ⟨0, _⟩ => ⟨k.val, k.isLt⟩
  | ⟨1, _⟩ => ⟨(i 1).val, (i 1).isLt⟩

/-- The matrix product of a [100000, 128] array with a [128, 1] array, entry by entry. -/
def rowDot (x : S100000x128.Idx → Elt Ideal .f32) (w : S128x1.Idx → Elt Ideal .f32) : S100000x1.Idx → Elt Ideal .f32 :=
  fun i => ∑ k : Fin 128, x (xAt i k) * w (wAt i k)

/-! ## The body's product at an entry of a block -/

/-- Entry (row of `j`, column `k`) of the left block. -/
abbrev bxAt (j : S5000x1.Idx) (k : Fin 128) : S5000x128.Idx := fun a => match a with
  | ⟨0, _⟩ => ⟨(j 0).val, (j 0).isLt⟩
  | ⟨1, _⟩ => ⟨k.val, k.isLt⟩
/-- Entry (row `k`, column of `j`) of the right block. -/
abbrev bwAt (j : S5000x1.Idx) (k : Fin 128) : S128x1.Idx := fun a => match a with
  | ⟨0, _⟩ => ⟨k.val, k.isLt⟩
  | ⟨1, _⟩ => ⟨(j 1).val, (j 1).isLt⟩

/-- The product's left operand index: its row is the output's row … -/
theorem lhs_row (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- … and its column the contracted index. -/
theorem lhs_col (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- The right operand index: its row is the contracted index … -/
theorem rhs_row (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- … and its column the output's column. -/
theorem rhs_col (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The body's one stored value at an entry: the sum over the 128 columns of the left block's row times the right
    block's column (the roundings to bf16 are the identity on the extended reals, the accumulator is zero). -/
theorem payload_apply (X : Vec Ideal S5000x128 .f32) (W : Vec Ideal S128x1 .f32) (j : S5000x1.Idx) :
    k0_pay1 (F := Ideal) X W j = ∑ k : Fin 128, X (bxAt j k) * W (bwAt j k) := by
  unfold k0_pay1
  show FloatOps.matmul (F := Ideal) dot_S5000x128_S128x1_S5000x1_1_0_0_1_n_n none (truncf (F := Ideal) .bf16 X bitsLt_bf16_f32) (truncf (F := Ideal) .bf16 W bitsLt_bf16_f32) (constant (F := Ideal) S5000x1 .f32 0x00000000#32) j = _
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx j ((ValueIdx.contrEquiv1 dot_S5000x128_S128x1_S5000x1_1_0_0_1_n_n 128 rfl rfl).symm k) = bxAt j k := funext fun a => Fin.ext (by
    match a with
    | ⟨0, _⟩ => exact lhs_row _ _
    | ⟨1, _⟩ => exact (lhs_col _ _).trans hk)
  have er : dot_S5000x128_S128x1_S5000x1_1_0_0_1_n_n.rhsIdx j ((ValueIdx.contrEquiv1 dot_S5000x128_S128x1_S5000x1_1_0_0_1_n_n 128 rfl rfl).symm k) = bwAt j k := funext fun a => Fin.ext (by
    match a with
    | ⟨0, _⟩ => exact (rhs_row _ _).trans hk
    | ⟨1, _⟩ => exact rhs_col _ _)
  rw [el, er]
  rfl

/-! ## From blocks to the array -/

/-- The three windows' index maps, decided over the 20 points: x and the output move down the rows together,
    W stays put. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry (p, k) of x's block at point `t` is entry (row of the output block's element, k) of the array. -/
theorem x_block_apply (c : Dev nD) (t : Fin cfg0.N) (j : S5000x1.Idx) (k : Fin 128) :
    iblk0 V c 0 t (bxAt j k) = V c main_arg0 (xAt (((cfg0.win 2).blk t).view.emb j) k) := by
  obtain ⟨e0, e1, e2, e3, e4, e5⟩ := index_facts t
  show V c main_arg0 (((cfg0.win 0).blk t).view.emb (bxAt j k)) = V c main_arg0 (xAt (((cfg0.win 2).blk t).view.emb j) k)
  refine congrArg (V c main_arg0) (funext fun a => Fin.ext ?_)
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 128 + 1 * k.val = k.val; omega

/-- Entry (k, q) of W's block at point `t` is entry (k, column of the output block's element) of the array. -/
theorem w_block_apply (c : Dev nD) (t : Fin cfg0.N) (j : S5000x1.Idx) (k : Fin 128) :
    iblk0 V c 1 t (bwAt j k) = V c main_arg3 (wAt (((cfg0.win 2).blk t).view.emb j) k) := by
  obtain ⟨e0, e1, e2, e3, e4, e5⟩ := index_facts t
  show V c main_arg3 (((cfg0.win 1).blk t).view.emb (bwAt j k)) = V c main_arg3 (wAt (((cfg0.win 2).blk t).view.emb j) k)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 1 + 1 * (j 1).val = win0_2.index t (1 : Fin 2) * 1 + 1 * (j 1).val; omega

/-- What point `t` writes back is block `t` of the product of the two arrays as the region finds them. -/
theorem flushed_eq (c : Dev nD) (t : Fin cfg0.N) :
    (dat0 V c).flushed 2 t = ((cfg0.win 2).blk t).view.read (Elt Ideal) (rowDot (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x1) zero_offsets]
  funext j
  show k0_pay1 (F := Ideal) (iblk0 V c 0 t) (iblk0 V c 1 t) j = rowDot (V c main_arg0) (V c main_arg3) (((cfg0.win 2).blk t).view.emb j)
  refine (payload_apply (iblk0 V c 0 t) (iblk0 V c 1 t) j).trans ?_
  unfold rowDot
  refine Finset.sum_congr rfl fun k _ => ?_
  rw [x_block_apply V c t j k, w_block_apply V c t j k]

/-- An index of the output array is in point `t`'s block iff each coordinate is in the block's range. -/
theorem mem_block (t : Fin cfg0.N) (i : S100000x1.Idx) :
    i ∈ ((cfg0.win 2).blk t).view.set ↔ ∀ a : Fin 2, win0_2.index t a * S5000x1.size a ≤ (i a).val ∧ (i a).val < win0_2.index t a * S5000x1.size a + S5000x1.size a := by
  show i ∈ ((View.whole main_v32).slice (win0_2.rect t)).set ↔ _
  rw [View.set_slice_whole, Rect.mem_set_unit]
  exact Iff.rfl

/-- The 20 blocks tile the output: row `r` lies in block `r / 5000`. -/
theorem covered (i : S100000x1.Idx) :
    ∃ t : Fin cfg0.N, (cfg0.win 2).flush t = true ∧ i ∈ ((cfg0.win 2).blk t).view.set := by
  have hi0 : (i 0).val < 100000 := (i 0).isLt
  have hi1 : (i 1).val < 1 := (i 1).isLt
  have hN : grid0.N = 20 := N_0
  let t : Fin cfg0.N := ⟨(i 0).val / 5000, by show (i 0).val / 5000 < grid0.N; omega⟩
  obtain ⟨e0, e1, e2, e3, e4, e5⟩ := index_facts t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 1 ≤ (i 1).val ∧ (i 1).val < win0_2.index t (1 : Fin 2) * 1 + 1; omega

/-- After region 0 its output array is the product of its two input arrays. -/
theorem final (c : Dev nD) : (dat0 V c).arrAt 2 cfg0.N = rowDot (V c main_arg0) (V c main_arg3) :=
  (dat0 V c).arrAt_eq_of_cover 2 (rowDot (V c main_arg0) (V c main_arg3)) (fun t _ => flushed_eq V c t) (covered)

end Cert.KernelIdeal.LinearRegion

end
-- ==== Proof.MishLaw.lean ====
/-
  Mish at ONE extended real, written twice.

  Both programs compute  z · tanh (softplus z)  with the numerically careful softplus
      softplus z = if (z - 0) ≠ (z - 0) then z + 0 else max z 0 + log1p (exp (-|z - 0|)).
  The kernel body spells the negation as the difference  0 - |z - 0|  and tests the guard with the ordered
  "not equal"; the reference spells it as a negation and tests with the unordered one, and its exponential,
  log1p and tanh are the host's. On the extended reals there is no NaN, so the two tests are one comparison,
  the host's transcendentals are the kernel's, and  0 - a = -a  holds for every a, infinite or not: the two
  spellings are one function. No finiteness is used.
-/
import Idealize.ShloMosaic.PureOps.Ideal
import Idealize.ShloMosaic.PureOps.Ideal.Laws

noncomputable section

namespace Cert.Mish

open Idealize.ShloMosaic

/-- Mish of one element in the kernel body's order of operations: the guard by the ordered comparison, the
    exponent as `0 - |z - 0|`. -/
def body (z : Ideal .f32) : Ideal .f32 :=
  FloatOps.mulf z (FloatOps.tanh (Scalar.select
    (FloatOps.cmpf .one (FloatOps.subf z (FloatOps.ofBits .f32 0x00000000#32)) (FloatOps.subf z (FloatOps.ofBits .f32 0x00000000#32)))
    (FloatOps.addf z (FloatOps.ofBits .f32 0x00000000#32))
    (FloatOps.addf (FloatOps.maximumf z (FloatOps.ofBits .f32 0x00000000#32))
      (FloatOps.log1p (FloatOps.exp (FloatOps.subf (FloatOps.ofBits .f32 0x00000000#32)
        (FloatOps.absf (FloatOps.subf z (FloatOps.ofBits .f32 0x00000000#32)))))))))

/-- Mish of one element in the reference's order of operations: the guard by the unordered comparison, the
    exponent as the negation of `|z - 0|`, the transcendentals the host's. -/
def host (z : Ideal .f32) : Ideal .f32 :=
  FloatOps.mulf z (FloatOps.hostUnary .tanh (Scalar.select
    (FloatOps.cmpf .une (FloatOps.subf z (FloatOps.ofBits .f32 0x00000000#32)) (FloatOps.subf z (FloatOps.ofBits .f32 0x00000000#32)))
    (FloatOps.addf z (FloatOps.ofBits .f32 0x00000000#32))
    (FloatOps.addf (FloatOps.maximumf z (FloatOps.ofBits .f32 0x00000000#32))
      (FloatOps.hostUnary .log1p (FloatOps.hostUnary .exp (FloatOps.hostNegf
        (FloatOps.hostAbsf (FloatOps.subf z (FloatOps.ofBits .f32 0x00000000#32)))))))))

/-- On the extended reals `0 - a` is `-a`, for every `a`. -/
theorem zero_sub_ereal (a : EReal) : (0 : EReal) - a = -a := by
  rw [sub_eq_add_neg, zero_add]

/-- The two spellings of Mish agree at every extended real. -/
theorem body_eq_host (z : Ideal .f32) : body z = host z := by
  unfold body host
  simp only [Ideal.mulf_def, Ideal.tanh_def, Ideal.hostUnary_tanh_def, Ideal.cmpf_def, Ideal.subf_def, Ideal.addf_def,
    Ideal.maximumf_def, Ideal.log1p_def, Ideal.hostUnary_log1p_def, Ideal.exp_def, Ideal.hostUnary_exp_def,
    Ideal.hostNegf_def, Ideal.hostAbsf_def, Ideal.negf_def, Ideal.ofBits_def, Ideal.ofBits_zero_f32, zero_sub_ereal]
  rfl

end Cert.Mish

end
-- ==== Proof.MishRegion.lean ====
/-
  The second kernel region: Mish applied lane by lane.

  The region walks a [1, 100352] array in 98 blocks of 1024 lanes; at point t both its windows are block t
  (row 0, lanes 1024·t … 1024·t + 1023). The body loads the block whole, applies Mish to every lane and stores
  the block whole, so what point t writes back is block t of ONE whole-array function: Mish of the input array,
  lane by lane. The 98 blocks tile the array (lane j lies in block j / 1024), hence after the region the output
  array is that function everywhere — whatever the array held when the region was entered.
  Everything is stated at an arbitrary entry contents `V`, as the generated frame states its region halves.
-/
import proofs.«163610_j22686017257663_1_alg».proof.Proof.Gen.KernelIdeal.Frame
import proofs.«163610_j22686017257663_1_alg».proof.Proof.MishLaw
import Idealize.ShloMosaic.Lib.Pipeline.Value
import Idealize.ShloMosaic.Lib.ValueIdx

set_option maxRecDepth 16384

noncomputable section

namespace Cert.KernelIdeal.MishRegion

open Cert.KernelIdeal Cert.KernelIdeal.Gen Idealize.ShloMosaic Idealize.ShloMosaic.TcCoe Idealize.SL.Sem
open Idealize.ShloMosaic.Pipeline (Dat)

/-- The zero offsets of a whole-block access, however spelt. -/
theorem zero_offsets : (![0, 0] : Fin 2 → Nat) = fun _ => 0 := funext fun a => by fin_cases a <;> rfl

/-- Mish of every lane of a [1, 100352] array. -/
def mishAll (a : S1x100352.Idx → Elt Ideal .f32) : S1x100352.Idx → Elt Ideal .f32 := fun i => Cert.Mish.body (a i)

/-- The body's one stored value, lane by lane: Mish of the loaded lane (the cast to the same shape is the
    identity, every other operation acts lane by lane). -/
theorem payload_eq (x0 : Vec Ideal S1x1024 .f32) : k1_pay1 (F := Ideal) x0 = fun j => Cert.Mish.body (x0 j) := by
  unfold k1_pay1
  dsimp only
  rw [shapeCast_self]
  rfl

/-- The two windows' index maps, decided over the 98 points: both are (0, t). -/
theorem index_facts : ∀ t : Fin cfg1.N, win1_0.index t (0 : Fin 2) = win1_1.index t (0 : Fin 2)
    ∧ win1_0.index t (1 : Fin 2) = win1_1.index t (1 : Fin 2)
    ∧ win1_1.index t (0 : Fin 2) = 0 ∧ win1_1.index t (1 : Fin 2) = t.val :=
  (by decide +kernel : ∀ t : Fin grid1.N, _)

variable (V : (c : Dev nD) → (b : Ref sig .tc) → Buf (Elt Ideal) ((c : Thread nD τ).loc b))

/-- What point `t` writes back is block `t` of Mish of the input array as the region finds it. -/
theorem flushed_eq (c : Dev nD) (t : Fin cfg1.N) :
    (dat1 V c).flushed 1 t = ((cfg1.win 1).blk t).view.read (Elt Ideal) (mishAll (V c main_v49)) := by
  show (cfg1.win 1).cut (grid1.coords t) ((dat1 V c).after 1 t) = _
  rw [after1_1]
  unfold out1_1
  rw [View.canon_unit_zero zero_offsets]
  simp only [View.ld_unit_zero (S := S1x1024) zero_offsets]
  rw [payload_eq]
  obtain ⟨e0, e1, e2, e3⟩ := index_facts t
  funext j
  show Cert.Mish.body (V c main_v49 (((cfg1.win 0).blk t).view.emb j)) = Cert.Mish.body (V c main_v49 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 1 + 1 * (j 0).val = win1_1.index t (0 : Fin 2) * 1 + 1 * (j 0).val; omega
    | ⟨1, _⟩ => show win1_0.index t (1 : Fin 2) * 1024 + 1 * (j 1).val = win1_1.index t (1 : Fin 2) * 1024 + 1 * (j 1).val; omega
  rw [h0]

/-- An index of the output array is in point `t`'s block iff each coordinate is in the block's range. -/
theorem mem_block (t : Fin cfg1.N) (i : S1x100352.Idx) :
    i ∈ ((cfg1.win 1).blk t).view.set ↔ ∀ a : Fin 2, win1_1.index t a * S1x1024.size a ≤ (i a).val ∧ (i a).val < win1_1.index t a * S1x1024.size a + S1x1024.size a := by
  show i ∈ ((View.whole main_v50).slice (win1_1.rect t)).set ↔ _
  rw [View.set_slice_whole, Rect.mem_set_unit]
  exact Iff.rfl

/-- The 98 blocks tile the array: lane `j` lies in block `j / 1024`. -/
theorem covered (i : S1x100352.Idx) :
    ∃ t : Fin cfg1.N, (cfg1.win 1).flush t = true ∧ i ∈ ((cfg1.win 1).blk t).view.set := by
  have hi0 : (i 0).val < 1 := (i 0).isLt
  have hi1 : (i 1).val < 100352 := (i 1).isLt
  have hN : grid1.N = 98 := N_1
  let t : Fin cfg1.N := ⟨(i 1).val / 1024, by show (i 1).val / 1024 < grid1.N; omega⟩
  obtain ⟨e0, e1, e2, e3⟩ := index_facts t
  have e3' : win1_1.index t (1 : Fin 2) = (i 1).val / 1024 := e3
  refine ⟨t, flush1_1 t, ?_⟩
  rw [mem_block]
  intro a
  match a with
  | ⟨0, _⟩ => show win1_1.index t (0 : Fin 2) * 1 ≤ (i 0).val ∧ (i 0).val < win1_1.index t (0 : Fin 2) * 1 + 1; omega
  | ⟨1, _⟩ => show win1_1.index t (1 : Fin 2) * 1024 ≤ (i 1).val ∧ (i 1).val < win1_1.index t (1 : Fin 2) * 1024 + 1024; omega

/-- After region 1 its output array is Mish of its input array, lane by lane. -/
theorem final (c : Dev nD) : (dat1 V c).arrAt 1 cfg1.N = mishAll (V c main_v49) :=
  (dat1 V c).arrAt_eq_of_cover 1 (mishAll (V c main_v49)) (fun t _ => flushed_eq V c t) (covered)

end Cert.KernelIdeal.MishRegion

end
-- ==== Proof.RefStages.lean ====
/-
  The reference, cut where the two programs differ.

  The reference computes the projected features  h = (x · W)[:, 0],  then the pre-activation
      z = scatter-add over the target nodes of  norm · h[source]   +  b[0]
  (the degree normalisation `norm` and the index vectors depend on the edge list and edge weights only), then
  Mish of z, lane by lane. The kernel computes h and Mish in its two regions and everything between them by the
  very same host operations, so the comparison needs the reference cut at h:
  * `zOf`: the pre-activation as a function of the edge data, the bias and ANY feature vector h — the reference's
    own stages with h in the place of its product;
  * the reference's pre-activation is `zOf` of its own h (by unfolding the stages).
-/
import proofs.«163610_j22686017257663_1_alg».proof.Proof.Gen.ReferenceIdeal.Run
import proofs.«163610_j22686017257663_1_alg».proof.Proof.Gen.ReferenceIdeal.Read

set_option maxRecDepth 16384

noncomputable section

namespace Cert.ReferenceIdeal.Shape

open Cert.ReferenceIdeal Cert.ReferenceIdeal.Gen Cert.ReferenceIdeal.Read Idealize.ShloMosaic Idealize.ShloMosaic.TcCoe Idealize.SL.Sem

/-- The pre-activation from the edge list `x1`, the edge weights `x2`, the bias `x4` and a feature vector `h`:
    the aggregation of the normalised, gathered features over the target nodes, plus the bias. -/
def zOf (x1 : (⟨S2x3200000, .i32⟩ : BufTy).Contents (Elt Ideal)) (x2 : (⟨S3200000, .f32⟩ : BufTy).Contents (Elt Ideal))
    (x4 : (⟨S1, .f32⟩ : BufTy).Contents (Elt Ideal)) (h : (⟨S100000, .f32⟩ : BufTy).Contents (Elt Ideal)) :
    (⟨S100000, .f32⟩ : BufTy).Contents (Elt Ideal) :=
  addf (F := Ideal) (φ := .f32)
    (Host.scatterAdd (F := Ideal) scatter_S100000_S3300000x1_S3300000_n_0_0_1 (val_main_v42 (F := Ideal)) (val_main_v43 (F := Ideal) x1)
      (mulf (F := Ideal) (φ := .f32) (val_main_v31 (F := Ideal) x1 x2)
        (Host.gather gather_S100000_S3300000x1_S3300000_n_0_n_n_0_1_1 h (val_main_v39 (F := Ideal) x1))))
    (val_main_v46 (F := Ideal) x4)

variable (x0 : (⟨S100000x128, .f32⟩ : BufTy).Contents (Elt Ideal)) (x1 : (⟨S2x3200000, .i32⟩ : BufTy).Contents (Elt Ideal))
  (x2 : (⟨S3200000, .f32⟩ : BufTy).Contents (Elt Ideal)) (x3 : (⟨S128x1, .f32⟩ : BufTy).Contents (Elt Ideal))
  (x4 : (⟨S1, .f32⟩ : BufTy).Contents (Elt Ideal))

/-- The reference's pre-activation is `zOf` of its own projected features. -/
theorem preactivation_eq :
    val_main_v47 (F := Ideal) x0 x1 x2 x3 x4 = zOf x1 x2 x4 (val_main_v33 (F := Ideal) x0 x3) := rfl

end Cert.ReferenceIdeal.Shape

end
-- ==== Proof.HostSide.lean ====
/-
  The kernel's host operations, read along the fold of its segments.

  Between its two regions, and around them, the kernel runs the reference's own host operations: the edge list is
  split into source and target indices with a self loop appended per node, the degree of every target node is the
  scatter-sum of the edge weights, the normalisation is the product of the two gathered inverse square roots of the
  degree with the weight, and — after the first region has produced the projected features h — the pre-activation
  is the scatter-sum over the target nodes of the normalisation times the gathered h, plus the bias; it is padded
  from 100000 to 100352 lanes for the second region, whose result is cut back to 100000 lanes.
  Each stretch is read here over an ARBITRARY contents of the buffers it starts from, so that no fold is ever
  opened twice:
  * the prelude (before the first region) leaves the source indices, the target indices and the normalisation at
    the reference's own stages of the same arguments, and writes no argument;
  * the stretch after the first region leaves the pre-activation at `zOf` (the reference's stages with the
    feature vector left open) of the first region's output, whatever that is;
  * the padding and the final slice only move lanes: lane j < 100000 of the result is lane j of the second region's
    output, whose input at lane j is the pre-activation's entry j.
  Chained along the segment boundaries, with the two regions' arrays from the region modules, the result buffer at
  lane j is the kernel body's Mish of `zOf … (x · W)` at j.
-/
import proofs.«163610_j22686017257663_1_alg».proof.Proof.Gen.KernelIdeal.Frame
import proofs.«163610_j22686017257663_1_alg».proof.Proof.LinearRegion
import proofs.«163610_j22686017257663_1_alg».proof.Proof.MishRegion
import proofs.«163610_j22686017257663_1_alg».proof.Proof.RefStages
import Idealize.ShloMosaic.Lib.StableHlo.Run
import Idealize.ShloMosaic.Lib.Pipeline.Value
import Idealize.ShloMosaic.Lib.KernelVsHost

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

/-! ## Each stretch over arbitrary starting contents -/

section Stretches

variable (U : Valuation τ sig (Elt Ideal))

/-- The last host operation: the result is the second region's output cut to its first 100000 lanes. -/
theorem slice_stretch :
    after hostOps2 U (Proc.devRef .tc main_v51)
      = extractStridedSlice S1x100000 ![0, 0] (U (Proc.devRef .tc main_v50)) slices_S1x100352_S1x100000_0_0 := by
  after_results <;> rfl

/-- The padding: the second region's input is the [1, 100000] pre-activation padded on the right to 100352 lanes. -/
theorem pad_stretch :
    after hostOps1_1 U (Proc.devRef .tc main_v49)
      = pad S1x100352 ![0, 0] ![0, 352] ![0, 0] (U (Proc.devRef .tc main_v48))
          (sitofp (F := Ideal) .f32 (U (Proc.devRef .tc main_c_9))) pads_S1x100000_S1x100352_000_03520 h_S_ := by
  after_results <;> rfl

/-- The [1, 100000] array handed to the padding is the pre-activation vector, reshaped. -/
theorem row_stretch :
    after hostOps1 U (Proc.devRef .tc main_v48)
      = shapeCast S1x100000 (after hostOps1 U (Proc.devRef .tc main_v47)) shapeCasts_S100000_S1x100000 := by
  after_results_simp <;> rfl

/-- The pre-activation after the first region: the reference's stages with the feature vector left open, at the
    first region's output reshaped to a vector — given that the source indices, the target indices and the
    normalisation are the reference's stages of the edge list `x1` and the edge weights `x2`, and the bias is `x4`. -/
theorem preactivation_stretch
    (x1 : (⟨Cert.ReferenceIdeal.S2x3200000, .i32⟩ : BufTy).Contents (Elt Ideal))
    (x2 : (⟨Cert.ReferenceIdeal.S3200000, .f32⟩ : BufTy).Contents (Elt Ideal))
    (x4 : (⟨Cert.ReferenceIdeal.S1, .f32⟩ : BufTy).Contents (Elt Ideal))
    (h3 : U (Proc.devRef .tc main_v3) = Cert.ReferenceIdeal.Read.val_main_v3 (F := Ideal) x1)
    (h6 : U (Proc.devRef .tc main_v6) = Cert.ReferenceIdeal.Read.val_main_v6 (F := Ideal) x1)
    (h31 : U (Proc.devRef .tc main_v31) = Cert.ReferenceIdeal.Read.val_main_v31 (F := Ideal) x1 x2)
    (h4 : U (Proc.devRef .tc main_arg4) = x4) :
    after hostOps1 U (Proc.devRef .tc main_v47)
      = Cert.ReferenceIdeal.Shape.zOf x1 x2 x4
          (shapeCast Cert.ReferenceIdeal.S100000 (U (Proc.devRef .tc main_v32)) Cert.ReferenceIdeal.Gen.shapeCasts_S100000x1_S100000) := by
  after_results_simp
  rw [h3, h6, h31, h4]
  rfl

end Stretches

/-! ## The prelude over arbitrary launch contents -/

section Prelude

variable (U : Valuation τ sig (Elt Ideal))

/-- The source indices (the edge list's first row, then one self loop per node) are the reference's stage. -/
theorem prelude_sources :
    after hostOps0_2 (after hostOps0_1 (after hostOps0 U)) (Proc.devRef .tc main_v3)
      = Cert.ReferenceIdeal.Read.val_main_v3 (F := Ideal) (U (Proc.devRef .tc main_arg1)) := by
  after_results_simp <;> rfl

/-- The target indices (the edge list's second row, then the self loops) are the reference's stage. -/
theorem prelude_targets :
    after hostOps0_2 (after hostOps0_1 (after hostOps0 U)) (Proc.devRef .tc main_v6)
      = Cert.ReferenceIdeal.Read.val_main_v6 (F := Ideal) (U (Proc.devRef .tc main_arg1)) := by
  after_results_simp <;> rfl

/-! The normalisation is read stretch by stretch: the first stretch leaves the weights with the self loops' ones
appended, the degree's positivity test and its inverse square root; the second selects between that root and zero;
the third gathers the selected value at the source and at the target of every edge and multiplies. -/

/-- First stretch: the edge weights with one weight 1 per self loop appended. -/
theorem head_weights :
    after hostOps0 U (Proc.devRef .tc main_v8)
      = Cert.ReferenceIdeal.Read.val_main_v8 (F := Ideal) (U (Proc.devRef .tc main_arg2)) := by
  after_results_simp <;> rfl

/-- First stretch: which target nodes have a positive degree. -/
theorem head_degree_pos :
    after hostOps0 U (Proc.devRef .tc main_v13)
      = Cert.ReferenceIdeal.Read.val_main_v13 (F := Ideal) (U (Proc.devRef .tc main_arg1)) (U (Proc.devRef .tc main_arg2)) := by
  after_results_simp <;> rfl

/-- First stretch: the inverse square root of every target node's degree. -/
theorem head_degree_rsqrt :
    after hostOps0 U (Proc.devRef .tc main_v14)
      = Cert.ReferenceIdeal.Read.val_main_v14 (F := Ideal) (U (Proc.devRef .tc main_arg1)) (U (Proc.devRef .tc main_arg2)) := by
  after_results_simp <;> rfl

/-- First stretch: the zero that replaces the root where the degree is not positive. -/
theorem head_zero :
    after hostOps0 U (Proc.devRef .tc main_cst_2) = Cert.ReferenceIdeal.Read.val_main_cst_2 (F := Ideal) := by
  after_results_simp <;> rfl

/-- First stretch: the source and the target indices. -/
theorem head_sources :
    after hostOps0 U (Proc.devRef .tc main_v3)
      = Cert.ReferenceIdeal.Read.val_main_v3 (F := Ideal) (U (Proc.devRef .tc main_arg1)) := by
  after_results_simp <;> rfl
theorem head_targets :
    after hostOps0 U (Proc.devRef .tc main_v6)
      = Cert.ReferenceIdeal.Read.val_main_v6 (F := Ideal) (U (Proc.devRef .tc main_arg1)) := by
  after_results_simp <;> rfl

/-- Second stretch, in its own terms: the root where the degree is positive, the broadcast zero elsewhere. -/
theorem where_ops :
    after hostOps0_1 U (Proc.devRef .tc main_v15)
      = select (U (Proc.devRef .tc main_v13)) (U (Proc.devRef .tc main_v14))
          (broadcastInDim S100000 ![] bcast_S_S100000 (id (U (Proc.devRef .tc main_cst_2)))) := by
  after_results <;> rfl

/-- Second stretch: the selected inverse square root, from the first stretch's three values. -/
theorem where_stretch
    (x1 : (⟨Cert.ReferenceIdeal.S2x3200000, .i32⟩ : BufTy).Contents (Elt Ideal))
    (x2 : (⟨Cert.ReferenceIdeal.S3200000, .f32⟩ : BufTy).Contents (Elt Ideal))
    (h13 : U (Proc.devRef .tc main_v13) = Cert.ReferenceIdeal.Read.val_main_v13 (F := Ideal) x1 x2)
    (h14 : U (Proc.devRef .tc main_v14) = Cert.ReferenceIdeal.Read.val_main_v14 (F := Ideal) x1 x2)
    (hz : U (Proc.devRef .tc main_cst_2) = Cert.ReferenceIdeal.Read.val_main_cst_2 (F := Ideal)) :
    after hostOps0_1 U (Proc.devRef .tc main_v15) = Cert.ReferenceIdeal.Read.val_main_v15 (F := Ideal) x1 x2 := by
  rw [where_ops, h13, h14, hz]
  rfl

/-- The second stretch writes none of the indices and weights read later. -/
theorem where_keeps_sources : after hostOps0_1 U (Proc.devRef .tc main_v3) = U (Proc.devRef .tc main_v3) := by
  after_results_simp <;> rfl
theorem where_keeps_targets : after hostOps0_1 U (Proc.devRef .tc main_v6) = U (Proc.devRef .tc main_v6) := by
  after_results_simp <;> rfl
theorem where_keeps_weights : after hostOps0_1 U (Proc.devRef .tc main_v8) = U (Proc.devRef .tc main_v8) := by
  after_results_simp <;> rfl

/-- Third stretch: the normalisation, from the selected root, the two index vectors and the weights. -/
theorem norm_stretch
    (x1 : (⟨Cert.ReferenceIdeal.S2x3200000, .i32⟩ : BufTy).Contents (Elt Ideal))
    (x2 : (⟨Cert.ReferenceIdeal.S3200000, .f32⟩ : BufTy).Contents (Elt Ideal))
    (h15 : U (Proc.devRef .tc main_v15) = Cert.ReferenceIdeal.Read.val_main_v15 (F := Ideal) x1 x2)
    (h3 : U (Proc.devRef .tc main_v3) = Cert.ReferenceIdeal.Read.val_main_v3 (F := Ideal) x1)
    (h6 : U (Proc.devRef .tc main_v6) = Cert.ReferenceIdeal.Read.val_main_v6 (F := Ideal) x1)
    (h8 : U (Proc.devRef .tc main_v8) = Cert.ReferenceIdeal.Read.val_main_v8 (F := Ideal) x2) :
    after hostOps0_2 U (Proc.devRef .tc main_v31) = Cert.ReferenceIdeal.Read.val_main_v31 (F := Ideal) x1 x2 := by
  after_results_simp
  rw [h15, h3, h6, h8]
  rfl

/-- The normalisation (inverse square root of the degree at the source, times the weight, times the same at the
    target) is the reference's stage. -/
theorem prelude_norm :
    after hostOps0_2 (after hostOps0_1 (after hostOps0 U)) (Proc.devRef .tc main_v31)
      = Cert.ReferenceIdeal.Read.val_main_v31 (F := Ideal) (U (Proc.devRef .tc main_arg1)) (U (Proc.devRef .tc main_arg2)) :=
  norm_stretch (after hostOps0_1 (after hostOps0 U)) (U (Proc.devRef .tc main_arg1)) (U (Proc.devRef .tc main_arg2))
    (where_stretch (after hostOps0 U) (U (Proc.devRef .tc main_arg1)) (U (Proc.devRef .tc main_arg2))
      (head_degree_pos U) (head_degree_rsqrt U) (head_zero U))
    ((where_keeps_sources (after hostOps0 U)).trans (head_sources U))
    ((where_keeps_targets (after hostOps0 U)).trans (head_targets U))
    ((where_keeps_weights (after hostOps0 U)).trans (head_weights U))

/-- The prelude writes none of the three arguments read later. -/
theorem prelude_keeps_x :
    after hostOps0_2 (after hostOps0_1 (after hostOps0 U)) (Proc.devRef .tc main_arg0) = U (Proc.devRef .tc main_arg0) := by
  after_results_simp <;> rfl
theorem prelude_keeps_W :
    after hostOps0_2 (after hostOps0_1 (after hostOps0 U)) (Proc.devRef .tc main_arg3) = U (Proc.devRef .tc main_arg3) := by
  after_results_simp <;> rfl
theorem prelude_keeps_b :
    after hostOps0_2 (after hostOps0_1 (after hostOps0 U)) (Proc.devRef .tc main_arg4) = U (Proc.devRef .tc main_arg4) := by
  after_results_simp <;> rfl

end Prelude

/-! ## Along the fold of the kernel's segments -/

variable (m : (ℓ : Loc nD τ sig) → Buf (Elt Ideal) ℓ) (ρ : Dev nD → PrngReg)

/-- After the first region its output holds the product of the two arguments it reads. -/
theorem features (c : Dev nD) :
    W4 m ρ c (Proc.devRef .tc main_v32)
      = LinearRegion.rowDot (m ((c : Thread nD τ).loc main_arg0)) (m ((c : Thread nD τ).loc main_arg3)) := by
  have e0 : V3 m ρ c main_arg0 = m ((c : Thread nD τ).loc main_arg0) := prelude_keeps_x (W0 m ρ c)
  have e3 : V3 m ρ c main_arg3 = m ((c : Thread nD τ).loc main_arg3) := prelude_keeps_W (W0 m ρ c)
  refine (W4_arr m ρ c 2).trans ((LinearRegion.final (V3 m ρ) c).trans ?_)
  rw [e0, e3]

/-- The pre-activation, after the stretch that follows the first region: the reference's stages with the feature
    vector left open, at the product x · W reshaped to a vector. -/
theorem preactivation (c : Dev nD) :
    W5 m ρ c (Proc.devRef .tc main_v47)
      = Cert.ReferenceIdeal.Shape.zOf (m ((c : Thread nD τ).loc main_arg1)) (m ((c : Thread nD τ).loc main_arg2))
          (m ((c : Thread nD τ).loc main_arg4))
          (shapeCast Cert.ReferenceIdeal.S100000
            (LinearRegion.rowDot (m ((c : Thread nD τ).loc main_arg0)) (m ((c : Thread nD τ).loc main_arg3)))
            Cert.ReferenceIdeal.Gen.shapeCasts_S100000x1_S100000) := by
  have h := preactivation_stretch (W4 m ρ c) (m ((c : Thread nD τ).loc main_arg1)) (m ((c : Thread nD τ).loc main_arg2))
    (m ((c : Thread nD τ).loc main_arg4))
    ((W4_of_ne m ρ c main_v3 (by decide)).trans (prelude_sources (W0 m ρ c)))
    ((W4_of_ne m ρ c main_v6 (by decide)).trans (prelude_targets (W0 m ρ c)))
    ((W4_of_ne m ρ c main_v31 (by decide)).trans (prelude_norm (W0 m ρ c)))
    ((W4_of_ne m ρ c main_arg4 (by decide)).trans (prelude_keeps_b (W0 m ρ c)))
  rw [features m ρ c] at h
  exact h

/-- Lane `j` of the result's one row, as an index of the pre-activation vector. -/
abbrev lane (i : S1x100000.Idx) : S100000.Idx := fun a => match a with
  | ⟨0, _⟩ => ⟨(i 1).val, (i 1).isLt⟩

/-- The same lane of the padded row. -/
abbrev paddedLane (i : S1x100000.Idx) : S1x100352.Idx := fun a => match a with
  | ⟨0, _⟩ => ⟨(i 0).val, (i 0).isLt⟩
  | ⟨1, _⟩ => ⟨(i 1).val, by have h1 : (i 1).val < 100000 := (i 1).isLt; show (i 1).val < 100352; omega⟩

/-- The result buffer at a lane: the kernel body's Mish of the pre-activation's entry at that lane. (The padding
    only adds lanes beyond 100000, which the final slice drops.) -/
theorem result_apply (c : Dev nD) (i : S1x100000.Idx) :
    W8 m ρ c (Proc.devRef .tc main_v51) i = Cert.Mish.body (W5 m ρ c (Proc.devRef .tc main_v47) (lane i)) := by
  have hout : W7 m ρ c (Proc.devRef .tc main_v50) = MishRegion.mishAll (V6 m ρ c main_v49) :=
    (W7_arr m ρ c 1).trans (MishRegion.final (V6 m ρ) c)
  have e8 : W8 m ρ c (Proc.devRef .tc main_v51)
      = extractStridedSlice S1x100000 ![0, 0] (W7 m ρ c (Proc.devRef .tc main_v50)) slices_S1x100352_S1x100000_0_0 :=
    slice_stretch (W7 m ρ c)
  rw [e8, hout]
  rw [extractStridedSlice_apply ![0, 0] _ slices_S1x100352_S1x100000_0_0 i (paddedLane i) (fun a => match a with
    | ⟨0, _⟩ => by show (i 0).val = 0 + (i 0).val; omega
    | ⟨1, _⟩ => by show (i 1).val = 0 + (i 1).val; omega)]
  show Cert.Mish.body (V6 m ρ c main_v49 (paddedLane i)) = _
  refine congrArg Cert.Mish.body ?_
  have e6 : V6 m ρ c main_v49
      = pad S1x100352 ![0, 0] ![0, 352] ![0, 0] (W5 m ρ c (Proc.devRef .tc main_v48))
          (sitofp (F := Ideal) .f32 (W5 m ρ c (Proc.devRef .tc main_c_9))) pads_S1x100000_S1x100352_000_03520 h_S_ :=
    pad_stretch (W5 m ρ c)
  rw [e6]
  rw [pad_apply_of_inside ![0, 0] ![0, 352] ![0, 0] _ _ pads_S1x100000_S1x100352_000_03520 h_S_ (paddedLane i) i (fun a => match a with
    | ⟨0, _⟩ => by show (i 0).val = 0 + (i 0).val * (0 + 1); omega
    | ⟨1, _⟩ => by show (i 1).val = 0 + (i 1).val * (0 + 1); omega)]
  have e5 : W5 m ρ c (Proc.devRef .tc main_v48)
      = shapeCast S1x100000 (W5 m ρ c (Proc.devRef .tc main_v47)) shapeCasts_S100000_S1x100000 :=
    row_stretch (W4 m ρ c)
  rw [e5]
  exact shapeCast_apply _ shapeCasts_S100000_S1x100000 i (lane i) (by
    rewrite [Shape.rowMajor_val_one, Shape.rowMajor_val_two]
    have h0 : (i 0).val < 1 := (i 0).isLt
    show (i 1).val = (i 0).val * 100000 + (i 1).val; omega)

end Cert.KernelIdeal.HostSide

end
-- ==== Proof.RefShape.lean ====
/-
  The reference's result at a lane.

  The reference applies Mish to the pre-activation vector and reshapes the [100000] result to one row: lane j of
  the row is the reference's spelling of Mish (MishLaw) at the pre-activation's entry j.
-/
import proofs.«163610_j22686017257663_1_alg».proof.Proof.Gen.ReferenceIdeal.Run
import proofs.«163610_j22686017257663_1_alg».proof.Proof.Gen.ReferenceIdeal.Read
import proofs.«163610_j22686017257663_1_alg».proof.Proof.RefStages
import proofs.«163610_j22686017257663_1_alg».proof.Proof.MishLaw

set_option maxRecDepth 16384

noncomputable section

namespace Cert.ReferenceIdeal.Shape

open Cert.ReferenceIdeal Cert.ReferenceIdeal.Gen Cert.ReferenceIdeal.Read Idealize.ShloMosaic Idealize.ShloMosaic.TcCoe Idealize.SL.Sem

variable (x0 : (⟨S100000x128, .f32⟩ : BufTy).Contents (Elt Ideal)) (x1 : (⟨S2x3200000, .i32⟩ : BufTy).Contents (Elt Ideal))
  (x2 : (⟨S3200000, .f32⟩ : BufTy).Contents (Elt Ideal)) (x3 : (⟨S128x1, .f32⟩ : BufTy).Contents (Elt Ideal))
  (x4 : (⟨S1, .f32⟩ : BufTy).Contents (Elt Ideal))

/-- The reference's result at a lane of its one row: its spelling of Mish at the pre-activation's entry. -/
theorem result_apply (i : S1x100000.Idx) :
    val_main_v51 (F := Ideal) x0 x1 x2 x3 x4 i
      = Cert.Mish.host (val_main_v47 (F := Ideal) x0 x1 x2 x3 x4 (idx_main_v51 i)) := by
  rw [val_main_v51_apply, val_main_v50_apply, val_main_v49_apply, val_main_v48_apply, val_main_call1_v4_apply,
    val_main_call1_v6_apply, val_main_call1_v11_apply, val_main_call1_v1_apply, val_main_call1_v10_apply,
    val_main_call1_v9_apply, val_main_call1_v8_apply, val_main_call1_v7_apply, val_main_call1_v3_apply,
    val_main_call1_v0_apply, val_main_call1_v2_apply, val_main_call1_v5_apply]
  repeat rw [val_main_call1_cst_apply]
  generalize val_main_v47 (F := Ideal) x0 x1 x2 x3 x4 (idx_main_v51 i) = z
  rfl

end Cert.ReferenceIdeal.Shape

end
-- ==== Proof.Bridge.lean ====
/-
  The two results are one array.

  Lane j of the kernel's result is the kernel body's Mish of  zOf(edges, weights, bias; h)  at j with  h = x · W  read
  off the first region, row by row; lane j of the reference's result is the reference's Mish of the same `zOf` at j
  with h its own `dot_general` of x and W, reshaped to a vector. The two products are the same sum over the 128
  columns, entry by entry; the two spellings of Mish agree on every extended real; so the two [1, 100000] arrays
  are equal — for arguments that agree, and with no use of their finiteness.
-/
import proofs.«163610_j22686017257663_1_alg».proof.Proof.HostSide
import proofs.«163610_j22686017257663_1_alg».proof.Proof.RefStages
import proofs.«163610_j22686017257663_1_alg».proof.Proof.RefShape
import proofs.«163610_j22686017257663_1_alg».proof.Proof.LinearRegion
import proofs.«163610_j22686017257663_1_alg».proof.Proof.MishLaw

set_option maxRecDepth 16384

noncomputable section

namespace Cert.Bridge

open Idealize.ShloMosaic Idealize.ShloMosaic.TcCoe Idealize.SL.Sem

/-- The reference's `dot_general` of x and W is the kernel's row-by-row product: at every entry the same sum over
    the 128 columns. -/
theorem product_eq (x0 : (⟨Cert.ReferenceIdeal.S100000x128, .f32⟩ : BufTy).Contents (Elt Ideal))
    (x3 : (⟨Cert.ReferenceIdeal.S128x1, .f32⟩ : BufTy).Contents (Elt Ideal)) :
    Cert.ReferenceIdeal.Read.val_main_v32 (F := Ideal) x0 x3 = Cert.KernelIdeal.LinearRegion.rowDot x0 x3 := by
  funext i
  rw [Cert.ReferenceIdeal.Read.val_main_v32_apply]
  unfold Cert.KernelIdeal.LinearRegion.rowDot
  refine Finset.sum_congr rfl fun k _ => ?_
  have el : Cert.ReferenceIdeal.Read.lidx_main_v32 i k = Cert.KernelIdeal.LinearRegion.xAt i k :=
    funext fun a => Fin.ext (by match a with | ⟨0, _⟩ => rfl | ⟨1, _⟩ => rfl)
  have er : Cert.ReferenceIdeal.Read.ridx_main_v32 i k = Cert.KernelIdeal.LinearRegion.wAt i k :=
    funext fun a => Fin.ext (by match a with | ⟨0, _⟩ => rfl | ⟨1, _⟩ => rfl)
  rw [el, er]

/-- The reference's result, at arguments equal to the kernel's, is the kernel's result buffer after its run. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S3200000, .f32⟩ : BufTy).Contents (Elt Ideal))
    (x3 : (⟨Cert.ReferenceIdeal.S128x1, .f32⟩ : BufTy).Contents (Elt Ideal))
    (x4 : (⟨Cert.ReferenceIdeal.S1, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4)) :
    Cert.ReferenceIdeal.Read.val_main_v51 (F := Ideal) x0 x1 x2 x3 x4
      = Cert.KernelIdeal.Gen.W8 m ρ c (Proc.devRef .tc Cert.KernelIdeal.main_v51) := by
  subst h0 h1 h2 h3 h4
  funext i
  rw [Cert.ReferenceIdeal.Shape.result_apply, Cert.ReferenceIdeal.Shape.preactivation_eq,
    Cert.KernelIdeal.HostSide.result_apply, Cert.KernelIdeal.HostSide.preactivation, ← Cert.Mish.body_eq_host]
  have hh : Cert.ReferenceIdeal.Read.val_main_v33 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
      = shapeCast Cert.ReferenceIdeal.S100000
          (Cert.KernelIdeal.LinearRegion.rowDot
            (m ((c.tc : Thread Cert.KernelIdeal.nD Cert.KernelIdeal.τ).loc Cert.KernelIdeal.main_arg0))
            (m ((c.tc : Thread Cert.KernelIdeal.nD Cert.KernelIdeal.τ).loc Cert.KernelIdeal.main_arg3)))
          Cert.ReferenceIdeal.Gen.shapeCasts_S100000x1_S100000 := by
    unfold Cert.ReferenceIdeal.Read.val_main_v33
    rw [product_eq]
  have hi : Cert.ReferenceIdeal.Read.idx_main_v51 i = Cert.KernelIdeal.HostSide.lane i :=
    funext fun a => Fin.ext (by
      match a with
      | ⟨0, _⟩ =>
        have h0 : (i 0).val < 1 := (i 0).isLt
        show (i 0).val * 100000 + (i 1).val = (i 1).val
        omega)
  rw [hh, hi]

end Cert.Bridge

end
-- ==== Proof.lean ====
/-
  A graph-convolution layer with a Mish activation, as a two-region kernel against its plain reference.

  Both programs compute, from node features x [100000, 128], an edge list [2, 3200000], edge weights, a weight
  column W [128, 1] and a bias b [1],
      out[0, j] = mish( (Σ over edges e into j, and j's self loop, of  norm_e · h[source e])  +  b[0] ),   h = x · W,
  where norm_e is the symmetric degree normalisation of the edge. The kernel computes h in a first region (twenty
  blocks of 5000 rows, a bf16 matrix product per block) and the activation in a second one (98 blocks of 1024 lanes
  of the pre-activation padded to 100352 lanes, then cut back); everything else — the degrees, the normalisation,
  the gathers and the scatter-sums — it leaves to the same host operations as the reference.

  On the extended reals the roundings to bf16 are the identity and a block's matrix product into zero is the plain
  sum over the 128 columns, so the first region's output is x · W entry by entry (LinearRegion), equal to the
  reference's product (Bridge). The host operations between the regions are the reference's own, so the
  pre-activation is the same function `zOf` of equal arguments (RefShape, HostSide); the second region applies Mish
  lane by lane (MishRegion), the padding and the slice only move lanes (HostSide), and the kernel's spelling of
  Mish — `0 - |z|` for the reference's `-|z|`, an ordered for an unordered comparison of a value with itself —
  agrees with the reference's on every extended real (MishLaw). No step needs the inputs to be finite.

  The frames of the two kernel programs are the generated ones; the reference's frame is its generated run with the
  result dropped; the idealisation rewrote nothing, so `preserves` is trivial; the kernel's run with its result
  buffer named is KernelRun.
-/
import proofs.«163610_j22686017257663_1_alg».proof.Defs
import proofs.«163610_j22686017257663_1_alg».proof.Proof.Gen.Kernel
import proofs.«163610_j22686017257663_1_alg».proof.Proof.Gen.Kernel.Skeleton
import proofs.«163610_j22686017257663_1_alg».proof.Proof.Gen.Kernel.Launch
import proofs.«163610_j22686017257663_1_alg».proof.Proof.Gen.Kernel.Points
import proofs.«163610_j22686017257663_1_alg».proof.Proof.Gen.Kernel.Frame
import proofs.«163610_j22686017257663_1_alg».proof.Proof.Gen.KernelIdeal
import proofs.«163610_j22686017257663_1_alg».proof.Proof.Gen.KernelIdeal.Skeleton
import proofs.«163610_j22686017257663_1_alg».proof.Proof.Gen.KernelIdeal.Launch
import proofs.«163610_j22686017257663_1_alg».proof.Proof.Gen.KernelIdeal.Points
import proofs.«163610_j22686017257663_1_alg».proof.Proof.Gen.KernelIdeal.Frame
import proofs.«163610_j22686017257663_1_alg».proof.Proof.Gen.ReferenceIdeal
import proofs.«163610_j22686017257663_1_alg».proof.Proof.Gen.ReferenceIdeal.Run
import proofs.«163610_j22686017257663_1_alg».proof.Proof.Gen.ReferenceIdeal.Read
import proofs.«163610_j22686017257663_1_alg».proof.Proof.Gen.Pre_finite_inputs
import proofs.«163610_j22686017257663_1_alg».proof.Proof.KernelRun
import proofs.«163610_j22686017257663_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both idealized programs run, and both end with the kernel's
    result buffer's contents: the kernel by its run with the result named, the reference because its result term,
    at equal arguments, is that array. -/
theorem algebraic : Cert.algebraic_KernelIdeal_ReferenceIdeal := by
  intro m ρ m' ρ' _ hagree
  refine ⟨fun c => Cert.KernelIdeal.Gen.W8 m ρ c (Proc.devRef .tc Cert.KernelIdeal.main_v51),
    Cert.KernelIdeal.ResultRun.run (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v51_eq m' c).trans
    (Cert.Bridge.result_eq m ρ c _ _ _ _ _ (hagree c).1 (hagree c).2.1 (hagree c).2.2.1 (hagree c).2.2.2.1 (hagree c).2.2.2.2)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
